-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x32 : Shape := ⟨2, ![4096, 32]⟩
abbrev S32 : Shape := ⟨1, ![32]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x32 .f32) (main_arg2 : FVec F S32 .f32) (main_arg3 : FVec F S32x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_v13 main_v16
-- ==== Kernel.lean ====
abbrev S4x2048x4096 : Shape := ⟨3, ![4, 2048, 4096]⟩
abbrev S4096x32 : Shape := ⟨2, ![4096, 32]⟩
abbrev S32 : Shape := ⟨1, ![32]⟩
abbrev S32x4096 : Shape := ⟨2, ![32, 4096]⟩
abbrev S8192x4096 : Shape := ⟨2, ![8192, 4096]⟩
abbrev S32x1 : Shape := ⟨2, ![32, 1]⟩
abbrev S512x4096 : Shape := ⟨2, ![512, 4096]⟩
abbrev S512x32 : Shape := ⟨2, ![512, 32]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x32, .f32⟩
  | .hbm, ⟨2, _⟩ => ⟨S32, .f32⟩
  | .hbm, ⟨3, _⟩ => ⟨S32x4096, .f32⟩
  | .hbm, ⟨4, _⟩ => ⟨S8192x4096, .f32⟩
  | .hbm, ⟨5, _⟩ => ⟨S32x1, .f32⟩
  | .hbm, ⟨6, _⟩ => ⟨S32x4096, .f32⟩
  | .hbm, ⟨7, _⟩ => ⟨S32x4096, .f32⟩
  | .hbm, ⟨8, _⟩ => ⟨S4096x32, .f32⟩
  | .hbm, ⟨9, _⟩ => ⟨S32x4096, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x32, .f32⟩
  | .local _ .vmem, ⟨3, _⟩ => ⟨S32x4096, .f32⟩
  | .local _ .vmem, ⟨4, _⟩ => ⟨S512x4096, .f32⟩
  | .local _ .vmem, ⟨5, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bcast_S32_S32x1_0 : S32.BroadcastsInDim S32x1 (![0] : Fin 1 → Fin S32x1.rank)
  bcast_S32x1_S32x4096_0_1 : S32x1.BroadcastsInDim S32x4096 (![0, 1] : Fin 2 → Fin S32x4096.rank)
  transposes_S32x4096_S4096x32_1_0 : S32x4096.Transposes [1, 0] S4096x32
  transposes_S4096x32_S32x4096_1_0 : S4096x32.Transposes [1, 0] S32x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  shapeCasts_S8192x4096_S4x2048x4096 : S8192x4096.ShapeCasts S4x2048x4096
  dot_S512x4096_S4096x32_S512x32_1_0_0_1_n_n_wf : DotDims.WF S512x4096 S4096x32 S512x32 [1] [0] [0] [1] [] []
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4096x32.size a
  hwx0_1 : ∀ i : grid0.Coords, EltTy.bits .f32 = 32 ∨ (Rect.block (s := S4096x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x32 : Shape := ⟨2, ![4096, 32]⟩
abbrev S32 : Shape := ⟨1, ![32]⟩
abbrev S32x4096 : Shape := ⟨2, ![32, 4096]⟩
abbrev S4x2048x32 : Shape := ⟨3, ![4, 2048, 32]⟩
abbrev S1x1x32 : Shape := ⟨3, ![1, 1, 32]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x32, .f32⟩
  | .hbm, ⟨2, _⟩ => ⟨S32, .f32⟩
  | .hbm, ⟨3, _⟩ => ⟨S32x4096, .f32⟩
  | .hbm, ⟨4, _⟩ => ⟨S4x2048x32, .f32⟩
  | .hbm, ⟨5, _⟩ => ⟨S1x1x32, .f32⟩
  | .hbm, ⟨6, _⟩ => ⟨S4x2048x32, .f32⟩
  | .hbm, ⟨7, _⟩ => ⟨S4x2048x32, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S4x2048x32_0_1_2 : S1x1x32.BroadcastsInDim S4x2048x32 (![0, 1, 2] : Fin 3 → Fin S4x2048x32.rank)
  bcast_S_S4x2048x4096 : S_.BroadcastsInDim S4x2048x4096 (![] : Fin 0 → Fin S4x2048x4096.rank)
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.LowRank.lean ====
/-
  The mathematics of the low-rank layer, stated once over the extended reals and free of any program.

  For an input `x` of shape [4, 2048, 4096], factors `U` [4096, 32], `V` [32, 4096] and singular values `S` [32], the
  layer's output at (b, s, o) is

      ( Σ_r  h(b, s, r) · U(o, r) ) · c,      c the f32 word of 1.0,

  where the rank-space activation `h` is written in one of two ways:
    * scaled AFTER the contraction:  h(b, s, r) = ( Σ_k x(b, s, k) · V(r, k) ) · S(r)        (`lowRank`),
    * scaled INSIDE the contraction: h(b, s, r) =   Σ_k x(b, s, k) · ( V(r, k) · S(r) )      (`lowRankFolded`).
  Over the extended reals the two agree when `x`, `V` and `S` hold real numbers (`lowRankFolded_eq`): pulling the
  factor `S(r)` out of the sum is distributivity, which fails at infinities (∞ + (−∞) is −∞ here) and holds on ℝ.
-/
import Idealize.ShloMosaic.PureOps.Ideal
import Idealize.ShloMosaic.Lib.ValueIdx

noncomputable section

open scoped BigOperators

namespace Cert.LowRank

open Idealize.ShloMosaic Idealize.ShloMosaic.ValueIdx

/-- Every entry of the array is a real number: neither infinity. -/
def Real' {ι : Type} (f : ι → EReal) : Prop := ∀ i, f i ≠ ⊤ ∧ f i ≠ ⊥

/-- The coercion of a finite real sum is the sum of the coercions. -/
theorem coe_sum {ι : Type} (t : Finset ι) (f : ι → ℝ) : ((∑ k ∈ t, f k : ℝ) : EReal) = ∑ k ∈ t, (f k : EReal) := by
  classical
  refine Finset.induction_on t (by simp) fun a t ha ih => ?_
  rw [Finset.sum_insert ha, Finset.sum_insert ha, EReal.coe_add, ih]

/-- A real factor common to every term of a sum of products of reals comes out of the sum. -/
theorem sum_mul_scaled {ι : Type} [Fintype ι] (a b : ι → EReal) (s : EReal) (ha : Real' a) (hb : Real' b)
    (hs : s ≠ ⊤ ∧ s ≠ ⊥) : ∑ k, a k * (b k * s) = (∑ k, a k * b k) * s := by
  lift s to ℝ using hs
  have ha' : ∀ k, ∃ r : ℝ, a k = r := fun k => ⟨(a k).toReal, (EReal.coe_toReal (ha k).1 (ha k).2).symm⟩
  have hb' : ∀ k, ∃ r : ℝ, b k = r := fun k => ⟨(b k).toReal, (EReal.coe_toReal (hb k).1 (hb k).2).symm⟩
  choose a' ea using ha'
  choose b' eb using hb'
  simp only [ea, eb, ← EReal.coe_mul]
  rw [← coe_sum, ← coe_sum, ← EReal.coe_mul, Finset.sum_mul]
  exact congrArg _ (Finset.sum_congr rfl fun k _ => by ring)

/-- The f32 word of 1.0, the layer's scaling `alpha / rank`, as both programs spell it. -/
abbrev scale : EReal := Ideal.ofBits .f32 0x3F800000#32

/-- The layer with the singular values applied AFTER the first contraction. -/
def lowRank (x : (⟨3, ![4, 2048, 4096]⟩ : Shape).Idx → EReal) (U : (⟨2, ![4096, 32]⟩ : Shape).Idx → EReal)
    (S : (⟨1, ![32]⟩ : Shape).Idx → EReal) (V : (⟨2, ![32, 4096]⟩ : Shape).Idx → EReal) :
    (⟨3, ![4, 2048, 4096]⟩ : Shape).Idx → EReal := fun i =>
  (∑ r : Fin 32, ((∑ k : Fin 4096, x (ix3 (i 0) (i 1) k) * V (ix2 r k)) * S (ix1 r)) * U (ix2 (i 2) r)) * scale

/-- The layer with the singular values folded INTO the first contraction's right factor. -/
def lowRankFolded (x : (⟨3, ![4, 2048, 4096]⟩ : Shape).Idx → EReal) (U : (⟨2, ![4096, 32]⟩ : Shape).Idx → EReal)
    (S : (⟨1, ![32]⟩ : Shape).Idx → EReal) (V : (⟨2, ![32, 4096]⟩ : Shape).Idx → EReal) :
    (⟨3, ![4, 2048, 4096]⟩ : Shape).Idx → EReal := fun i =>
  (∑ r : Fin 32, (∑ k : Fin 4096, x (ix3 (i 0) (i 1) k) * (V (ix2 r k) * S (ix1 r))) * U (ix2 (i 2) r)) * scale

/-- On real `x`, `V` and `S` the two are one function (nothing is asked of `U`). -/
theorem lowRankFolded_eq (x : (⟨3, ![4, 2048, 4096]⟩ : Shape).Idx → EReal) (U : (⟨2, ![4096, 32]⟩ : Shape).Idx → EReal)
    (S : (⟨1, ![32]⟩ : Shape).Idx → EReal) (V : (⟨2, ![32, 4096]⟩ : Shape).Idx → EReal)
    (hx : Real' x) (hS : Real' S) (hV : Real' V) : lowRankFolded x U S V = lowRank x U S V := by
  funext i
  unfold lowRankFolded lowRank
  refine congrArg (· * scale) (Finset.sum_congr rfl fun r _ => congrArg (· * U (ix2 (i 2) r)) ?_)
  exact sum_mul_scaled (fun k => x (ix3 (i 0) (i 1) k)) (fun k => V (ix2 r k)) (S (ix1 r)) (fun k => hx _) (fun k => hV _) (hS _)

end Cert.LowRank

end
-- ==== Proof.Finite.lean ====
/-
  What the precondition says: every entry of every float argument is a real number.

  The precondition is the conjunction, over the four arguments, of "every entry's absolute value is below +∞". An
  extended real whose absolute value max(a, −a) is below +∞ is neither +∞ nor −∞.
-/
import proofs.«107624_j43310450213238_1_alg».proof.Pre_finite_inputs
import proofs.«107624_j43310450213238_1_alg».proof.Proof.LowRank
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx Cert.LowRank

instance : Subsingleton S_.Idx := ⟨fun _ _ => funext fun d => d.elim0⟩

/-- The f32 word 0x7F800000 is +∞. -/
theorem inf_word : Ideal.ofBits .f32 0x7F800000#32 = ⊤ := by simp [Ideal.ofBits, Ideal.ieee]

/-- An extended real whose absolute value compares below +∞ is a real number. -/
theorem real_of_abs_lt_inf (a : EReal) (h : Ideal.cmp .olt (max a (-a)) (Ideal.ofBits .f32 0x7F800000#32) = 1#1) :
    a ≠ ⊤ ∧ a ≠ ⊥ := by
  rw [inf_word] at h
  have hlt : max a (-a) < ⊤ := by
    by_contra hn
    simp [Ideal.cmp, hn] at h
  constructor
  · rintro rfl; simp at hlt
  · rintro rfl; simp at hlt

/-- One conjunct of the precondition, read at an entry: `all(|y| < +∞)` makes every entry of `y` real. -/
theorem real_of_all {s : Shape} {axes : List (Fin s.rank)} (y : FVec Ideal s .f32) (hb : S_.BroadcastsInDim s (![] : Fin 0 → Fin s.rank))
    (hr : s.ReducesTo axes S_) (hu : 0 < S_.numel)
    (e : Host.reduce IntOp.andi (cmpf .olt (Host.absf y) (broadcastInDim s ![] hb (constant (F := Ideal) S_ .f32 0x7F800000#32)))
      (constantI S_ 1 1#1) hr hu ix0 = 1#1) : Real' y := fun i => by
  have h := Host.reduce_andi_all _ _ hr hu ix0 e i
  rw [cmpf_apply, broadcastInDim_apply _ hb _ i ix0 (fun a => a.elim0)] at h
  exact real_of_abs_lt_inf (y i) h

/-- The precondition makes all four arguments real. -/
theorem real_of_pre [Cert.Pre_finite_inputs.Facts] (x : FVec Ideal S4x2048x4096 .f32) (U : FVec Ideal S4096x32 .f32)
    (S : FVec Ideal S32 .f32) (V : FVec Ideal S32x4096 .f32)
    (h : Cert.Pre_finite_inputs.fn (F := Ideal) x U S V = fun _ => 1#1) : Real' x ∧ Real' U ∧ Real' S ∧ Real' V := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, hU⟩ := IntOp.andi_eq_one.1 h01
  exact ⟨real_of_all x _ _ _ hx, real_of_all U _ _ _ hU, real_of_all S _ _ _ h2, real_of_all V _ _ _ h3⟩

end Cert.Pre_finite_inputs.Finite

end
-- ==== Proof.RefValue.lean ====
/-
  The reference computes `lowRank`.

  Its eight operations are: the contraction of `x` with `V` over the 4096 axis; the singular values laid along the last
  axis of a [4, 2048, 32] array; their product with the contraction; the contraction of that with `U` over the rank
  axis; and the product with the constant 1.0. Read at an entry (b, s, o) of the result, outermost first, this is

      ( Σ_r ( ( Σ_k x(b, s, k) · V(r, k) ) · S(r) ) · U(o, r) ) · c.
-/
import proofs.«107624_j43310450213238_1_alg».proof.Proof.Gen.ReferenceIdeal.Read
import proofs.«107624_j43310450213238_1_alg».proof.Proof.LowRank

noncomputable section

open scoped BigOperators

namespace Cert.ReferenceIdeal.RefValue

open Cert.ReferenceIdeal Cert.ReferenceIdeal.Gen Cert.ReferenceIdeal.Read Idealize.ShloMosaic Idealize.ShloMosaic.ValueIdx

/-- The first contraction's left operand index, under the second's: (b, s, k). -/
theorem input_index (i : S4x2048x4096.Idx) (r : Fin 32) (k : Fin 4096) :
    lidx_main_v0 (lidx_main_v4 i r) k = ix3 (i 0) (i 1) k :=
  funext fun a => Fin.ext (by match a with | ⟨0, _⟩ => rfl | ⟨1, _⟩ => rfl | ⟨2, _⟩ => rfl)

/-- The first contraction's right operand index, under the second's: (r, k). -/
theorem right_index (i : S4x2048x4096.Idx) (r : Fin 32) (k : Fin 4096) :
    ridx_main_v0 (lidx_main_v4 i r) k = ix2 r k :=
  funext fun a => Fin.ext (by match a with | ⟨0, _⟩ => rfl | ⟨1, _⟩ => rfl)

/-- The singular value met at rank coordinate r. -/
theorem singular_index (i : S4x2048x4096.Idx) (r : Fin 32) :
    idx_main_v1 (idx_main_v2 (lidx_main_v4 i r)) = ix1 r :=
  funext fun a => Fin.ext (by match a with | ⟨0, _⟩ => rfl)

/-- The second contraction's right operand index: (o, r). -/
theorem left_index (i : S4x2048x4096.Idx) (r : Fin 32) : ridx_main_v4 i r = ix2 (i 2) r :=
  funext fun a => Fin.ext (by match a with | ⟨0, _⟩ => rfl | ⟨1, _⟩ => rfl)

/-- The reference's result, as a function of its four arguments, is `lowRank`. -/
theorem reference_eq (x : S4x2048x4096.Idx → EReal) (U : S4096x32.Idx → EReal) (S : S32.Idx → EReal) (V : S32x4096.Idx → EReal) :
    val_main_v6 (F := Ideal) x U S V = Cert.LowRank.lowRank x U S V := by
  funext i
  rw [val_main_v6_apply, val_main_v4_apply, val_main_v5_apply, val_main_cst_apply]
  simp only [val_main_v3_apply, val_main_v0_apply, val_main_v2_apply, val_main_v1_apply, input_index, right_index,
    singular_index, left_index, Ideal.mulf_def, Ideal.ofBits_def]
  rfl

end Cert.ReferenceIdeal.RefValue

end
-- ==== Proof.Payload.lean ====
/-
  One grid point's arithmetic, read at one entry of the output block.

  The body loads a 512-row block `X` of the flattened input ([512, 4096]), the whole folded right factor `Vt` ([4096, 32])
  and the whole transposed left factor `Ut` ([32, 4096]), and stores

      ( (X · Vt) · Ut ) · c          (two matrix products into zero accumulators, then the scaling word c of 1.0).

  Over the extended reals a change of float format is the identity and a matrix product into a zero accumulator is the
  plain sum over the contracted axis, so entry (p, q) of the stored block is

      ( Σ_r ( Σ_k X(p, k) · Vt(k, r) ) · Ut(r, q) ) · c.
-/
import proofs.«107624_j43310450213238_1_alg».proof.Proof.Gen.KernelIdeal.Skeleton
import proofs.«107624_j43310450213238_1_alg».proof.Proof.LowRank
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The first product: [512, 4096] × [4096, 32], contracting the 4096 axis -/

theorem lhs1_row (p : Fin 512) (r : Fin 32) (q : dot_S512x4096_S4096x32_S512x32_1_0_0_1_n_n.contr.Idx) :
    (dot_S512x4096_S4096x32_S512x32_1_0_0_1_n_n.lhsIdx (ix2 p r) q 0).val = p.val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem lhs1_contr (p : Fin 512) (r : Fin 32) (q : dot_S512x4096_S4096x32_S512x32_1_0_0_1_n_n.contr.Idx) :
    (dot_S512x4096_S4096x32_S512x32_1_0_0_1_n_n.lhsIdx (ix2 p r) q 1).val = (q ⟨0, by decide⟩).val :=
  dot_S512x4096_S4096x32_S512x32_1_0_0_1_n_n.lhsIdx_val_of_single rfl _ q
theorem rhs1_contr (p : Fin 512) (r : Fin 32) (q : dot_S512x4096_S4096x32_S512x32_1_0_0_1_n_n.contr.Idx) :
    (dot_S512x4096_S4096x32_S512x32_1_0_0_1_n_n.rhsIdx (ix2 p r) q 0).val = (q ⟨0, by decide⟩).val :=
  dot_S512x4096_S4096x32_S512x32_1_0_0_1_n_n.rhsIdx_val_of_single rfl _ q
theorem rhs1_col (p : Fin 512) (r : Fin 32) (q : dot_S512x4096_S4096x32_S512x32_1_0_0_1_n_n.contr.Idx) :
    (dot_S512x4096_S4096x32_S512x32_1_0_0_1_n_n.rhsIdx (ix2 p r) q 1).val = r.val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- Entry (p, r) of the first product into a zero accumulator: row p of the left operand against column r of the right. -/
theorem product1_apply {φ₁ φ₂ : FTy} (l : FVec Ideal S512x4096 φ₁) (v : FVec Ideal S4096x32 φ₂) (p : Fin 512) (r : Fin 32) :
    matmul dot_S512x4096_S4096x32_S512x32_1_0_0_1_n_n none l v (constant S512x32 .f32 0x00000000#32) (ix2 p r)
      = ∑ k : Fin 4096, l (ix2 p k) * v (ix2 k r) := by
  simp only [matmul]
  rw [Ideal.matmul_constant_zero_apply, ← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p r) ((contrEquiv1 dot_S512x4096_S4096x32_S512x32_1_0_0_1_n_n 4096 rfl rfl).symm k) = ix2 p k := funext fun a => Fin.ext (by
    match a with
    | ⟨0, _⟩ => exact lhs1_row _ _ _
    | ⟨1, _⟩ => exact (lhs1_contr _ _ _).trans hk)
  have er : dot_S512x4096_S4096x32_S512x32_1_0_0_1_n_n.rhsIdx (ix2 p r) ((contrEquiv1 dot_S512x4096_S4096x32_S512x32_1_0_0_1_n_n 4096 rfl rfl).symm k) = ix2 k r := funext fun a => Fin.ext (by
    match a with
    | ⟨0, _⟩ => exact (rhs1_contr _ _ _).trans hk
    | ⟨1, _⟩ => exact rhs1_col _ _ _)
  rw [el, er]

/-! ## The second product: [512, 32] × [32, 4096], contracting the rank axis -/

theorem lhs2_row (p : Fin 512) (o : Fin 4096) (q : dot_S512x32_S32x4096_S512x4096_1_0_0_1_n_n.contr.Idx) :
    (dot_S512x32_S32x4096_S512x4096_1_0_0_1_n_n.lhsIdx (ix2 p o) q 0).val = p.val := by
  unfold DotDims.lhsIdx
  rw [dif_neg (show ¬(0 : Fin S512x32.rank) ∈ dot_S512x32_S32x4096_S512x4096_1_0_0_1_n_n.lhsBatch by decide), dif_pos (show (0 : Fin S512x32.rank) ∈ dot_S512x32_S32x4096_S512x4096_1_0_0_1_n_n.lhsNonContracting by decide)]
  rfl
theorem lhs2_contr (p : Fin 512) (o : Fin 4096) (q : dot_S512x32_S32x4096_S512x4096_1_0_0_1_n_n.contr.Idx) :
    (dot_S512x32_S32x4096_S512x4096_1_0_0_1_n_n.lhsIdx (ix2 p o) q 1).val = (q ⟨0, by decide⟩).val :=
  dot_S512x32_S32x4096_S512x4096_1_0_0_1_n_n.lhsIdx_val_of_single rfl _ q
theorem rhs2_contr (p : Fin 512) (o : Fin 4096) (q : dot_S512x32_S32x4096_S512x4096_1_0_0_1_n_n.contr.Idx) :
    (dot_S512x32_S32x4096_S512x4096_1_0_0_1_n_n.rhsIdx (ix2 p o) q 0).val = (q ⟨0, by decide⟩).val :=
  dot_S512x32_S32x4096_S512x4096_1_0_0_1_n_n.rhsIdx_val_of_single rfl _ q
theorem rhs2_col (p : Fin 512) (o : Fin 4096) (q : dot_S512x32_S32x4096_S512x4096_1_0_0_1_n_n.contr.Idx) :
    (dot_S512x32_S32x4096_S512x4096_1_0_0_1_n_n.rhsIdx (ix2 p o) q 1).val = o.val := by
  unfold DotDims.rhsIdx
  rw [dif_neg (show ¬(1 : Fin S32x4096.rank) ∈ dot_S512x32_S32x4096_S512x4096_1_0_0_1_n_n.rhsBatch by decide), dif_pos (show (1 : Fin S32x4096.rank) ∈ dot_S512x32_S32x4096_S512x4096_1_0_0_1_n_n.rhsNonContracting by decide)]
  rfl

/-- Entry (p, o) of the second product into a zero accumulator. -/
theorem product2_apply {φ₁ φ₂ : FTy} (h : FVec Ideal S512x32 φ₁) (u : FVec Ideal S32x4096 φ₂) (p : Fin 512) (o : Fin 4096) :
    matmul dot_S512x32_S32x4096_S512x4096_1_0_0_1_n_n none h u (constant S512x4096 .f32 0x00000000#32) (ix2 p o)
      = ∑ r : Fin 32, h (ix2 p r) * u (ix2 r o) := by
  simp only [matmul]
  rw [Ideal.matmul_constant_zero_apply, ← Equiv.sum_comp (contrEquiv1 dot_S512x32_S32x4096_S512x4096_1_0_0_1_n_n 32 rfl rfl).symm]
  refine Finset.sum_congr rfl fun k _ => ?_
  have hk := contrEquiv1_symm_val dot_S512x32_S32x4096_S512x4096_1_0_0_1_n_n 32 rfl rfl k
  have el : dot_S512x32_S32x4096_S512x4096_1_0_0_1_n_n.lhsIdx (ix2 p o) ((contrEquiv1 dot_S512x32_S32x4096_S512x4096_1_0_0_1_n_n 32 rfl rfl).symm k) = ix2 p k := funext fun a => Fin.ext (by
    match a with
    | ⟨0, _⟩ => exact lhs2_row _ _ _
    | ⟨1, _⟩ => exact (lhs2_contr _ _ _).trans hk)
  have er : dot_S512x32_S32x4096_S512x4096_1_0_0_1_n_n.rhsIdx (ix2 p o) ((contrEquiv1 dot_S512x32_S32x4096_S512x4096_1_0_0_1_n_n 32 rfl rfl).symm k) = ix2 k o := funext fun a => Fin.ext (by
    match a with
    | ⟨0, _⟩ => exact (rhs2_contr _ _ _).trans hk
    | ⟨1, _⟩ => exact rhs2_col _ _ _)
  rw [el, er]

/-! ## The stored block at an entry -/

/-- Entry (p, q) of what the body stores, from the three loaded blocks. -/
theorem payload_apply (X : Vec Ideal S512x4096 .f32) (Vt : Vec Ideal S4096x32 .f32) (Ut : Vec Ideal S32x4096 .f32)
    (p : Fin 512) (q : Fin 4096) :
    k0_pay1 (F := Ideal) X Vt Ut (ix2 p q)
      = (∑ r : Fin 32, (∑ k : Fin 4096, X (ix2 p k) * Vt (ix2 k r)) * Ut (ix2 r q)) * Cert.LowRank.scale := by
  unfold k0_pay1
  simp only [shapeCast_self]
  rw [mulf_apply, broadcast_apply, product2_apply]
  simp only [truncf_apply, product1_apply]
  rfl

/-- The same at an entry not yet split into its coordinates. -/
theorem payload_at (X : Vec Ideal S512x4096 .f32) (Vt : Vec Ideal S4096x32 .f32) (Ut : Vec Ideal S32x4096 .f32)
    (j : S512x4096.Idx) :
    k0_pay1 (F := Ideal) X Vt Ut j
      = (∑ r : Fin 32, (∑ k : Fin 4096, X (ix2 (j 0) k) * Vt (ix2 k r)) * Ut (ix2 r (j 1))) * Cert.LowRank.scale := by
  obtain ⟨p, q, rfl⟩ : ∃ (p : Fin 512) (q : Fin 4096), j = ix2 p q := ⟨j 0, j 1, eq_ix2 j⟩
  exact payload_apply X Vt Ut p q

end Cert.KernelIdeal.Body

end
-- ==== Proof.Blocks.lean ====
/-
  From the sixteen row blocks to the whole flattened output.

  Grid point `t` reads rows [512·t, 512·t + 512) of the flattened input `X`, all of `Vt` and all of `Ut`, and writes rows
  [512·t, 512·t + 512) of the flattened output. Its stored block is the restriction to those rows of ONE function of the
  three arrays,

      rowsOut X Vt Ut (M, o) = ( Σ_r ( Σ_k X(M, k) · Vt(k, r) ) · Ut(r, o) ) · c,

  because row `M` of the output depends only on row `M` of `X`. The sixteen blocks tile the 8192 rows (row `M` lies in
  block `M / 512`), so after the region the output array is `rowsOut` of the arrays the region found.
-/
import proofs.«107624_j43310450213238_1_alg».proof.Proof.Gen.KernelIdeal.Frame
import proofs.«107624_j43310450213238_1_alg».proof.Proof.Payload
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Every access of the body starts at the origin of its buffer. -/
theorem origin : (![0, 0] : Fin 2 → Nat) = fun _ => 0 := funext fun a => by fin_cases a <;> rfl

/-- The flattened output as one function of the three arrays the region reads. -/
def rowsOut (X : S8192x4096.Idx → EReal) (Vt : S4096x32.Idx → EReal) (Ut : S32x4096.Idx → EReal) : S8192x4096.Idx → EReal :=
  fun j => (∑ r : Fin 32, (∑ k : Fin 4096, X (ix2 (j 0) k) * Vt (ix2 k r)) * Ut (ix2 r (j 1))) * Cert.LowRank.scale

/-- `rowsOut` at an entry given by its coordinates. -/
theorem rowsOut_apply (X : S8192x4096.Idx → EReal) (Vt : S4096x32.Idx → EReal) (Ut : S32x4096.Idx → EReal) (M : Fin 8192) (o : Fin 4096) :
    rowsOut X Vt Ut (ix2 M o) = (∑ r : Fin 32, (∑ k : Fin 4096, X (ix2 M k) * Vt (ix2 k r)) * Ut (ix2 r o)) * Cert.LowRank.scale := rfl

/-- The block indices, decided over the sixteen points: the input's row block is the output's, the two factors are
    whole (block 0 on both axes), the output's column block is 0 and its row block is below 16. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every row block of the output is some point's. -/
theorem block_onto : ∀ (b : Fin 16), ∃ t : Fin cfg0.N, win0_3.index t = ![b.val, 0] :=
  (by decide +kernel : ∀ (b : Fin 16), ∃ t : Fin grid0.N, win0_3.index t = ![b.val, 0])

/-- What point `t` writes back is block `t` of `rowsOut` of the arrays the region finds. -/
theorem flushed_eq (c : Dev nD) (t : Fin cfg0.N) :
    (dats m 0 c).flushed 3 t
      = ((cfg0.win 3).blk t).view.read (Elt Ideal) (rowsOut (V m c main_v0) (V m c main_v4) (V m c main_v5)) := by
  show (cfg0.win 3).cut (grid0.coords t) ((dats m 0 c).after 3 t) = _
  rw [after0_3]
  unfold out0_3
  rw [View.canon_unit_zero origin]
  simp only [View.ld_unit_zero (S := S512x4096) origin, View.ld_unit_zero (S := S4096x32) origin, View.ld_unit_zero (S := S32x4096) origin]
  obtain ⟨e0, e1, e2, e3, e4, e5, e6, e7⟩ := block_indices t
  funext j
  refine (Body.payload_at (iblk m c 0 t) (iblk m c 1 t) (iblk m c 2 t) j).trans ?_
  show _ = rowsOut (V m c main_v0) (V m c main_v4) (V m c main_v5) (((cfg0.win 3).blk t).view.emb j)
  unfold rowsOut
  have h0 : ∀ k : Fin 4096, iblk m c 0 t (ix2 (j 0) k) = V m c main_v0 (ix2 ((((cfg0.win 3).blk t).view.emb j) 0) k) := fun k => by
    show V m c main_v0 (((cfg0.win 0).blk t).view.emb (ix2 (j 0) k)) = _
    refine congrArg (V m c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * k.val = k.val; omega
  have h1 : ∀ (k : Fin 4096) (r : Fin 32), iblk m c 1 t (ix2 k r) = V m c main_v4 (ix2 k r) := fun k r => by
    show V m c main_v4 (((cfg0.win 1).blk t).view.emb (ix2 k r)) = _
    refine congrArg (V m c main_v4) (funext fun a => Fin.ext ?_)
    match a with
    | ⟨0, _⟩ => show win0_1.index t (0 : Fin 2) * 4096 + 1 * k.val = k.val; omega
    | ⟨1, _⟩ => show win0_1.index t (1 : Fin 2) * 32 + 1 * r.val = r.val; omega
  have h2 : ∀ r : Fin 32, iblk m c 2 t (ix2 r (j 1)) = V m c main_v5 (ix2 r ((((cfg0.win 3).blk t).view.emb j) 1)) := fun r => by
    show V m c main_v5 (((cfg0.win 2).blk t).view.emb (ix2 r (j 1))) = _
    refine congrArg (V m c main_v5) (funext fun a => Fin.ext ?_)
    match a with
    | ⟨0, _⟩ => show win0_2.index t (0 : Fin 2) * 32 + 1 * r.val = r.val; omega
    | ⟨1, _⟩ => show win0_2.index t (1 : Fin 2) * 4096 + 1 * (j 1).val = win0_3.index t (1 : Fin 2) * 4096 + 1 * (j 1).val; omega
  simp only [h0, h1, h2]

/-- An entry of the output array lies in point `t`'s block iff each coordinate lies in the block's range on its axis. -/
theorem mem_block (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v6).slice (win0_3.rect t)).set ↔ _
  rw [View.set_slice_whole, Rect.mem_set_unit]
  exact Iff.rfl

/-- Row `M` lies in block `M / 512`: the blocks cover the array. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The output array after the region. -/
theorem final (c : Dev nD) :
    (dats m 0 c).arrAt 3 cfg0.N = rowsOut (V m c main_v0) (V m c main_v4) (V m c main_v5) :=
  (dats m 0 c).arrAt_eq_of_cover 3 _ (fun t _ => flushed_eq m c t) covered

end Cert.KernelIdeal.Blocks

end
-- ==== Proof.Entry.lean ====
/-
  The three arrays the region finds, as functions of the program's arguments.

  Before the region the program flattens the input `x` [4, 2048, 4096] to `X` [8192, 4096] (row-major: row `2048·b + s` of `X`
  is row `s` of batch `b`), scales every row `r` of `V` [32, 4096] by `S(r)` and transposes the result to
  `Vt` [4096, 32], and transposes `U` [4096, 32] to `Ut` [32, 4096]. Entry by entry:

      X(2048·b + s, k) = x(b, s, k),     Vt(k, r) = V(r, k) · S(r),     Ut(r, o) = U(o, r).
-/
import proofs.«107624_j43310450213238_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The program's four arguments on core `c`, as arrays of extended reals -/

/-- The input `x` [4, 2048, 4096]. -/
abbrev argX (c : Dev nD) : S4x2048x4096.Idx → EReal := m ((c : Thread nD τ).loc main_arg0)
/-- The left factor `U` [4096, 32]. -/
abbrev argU (c : Dev nD) : S4096x32.Idx → EReal := m ((c : Thread nD τ).loc main_arg1)
/-- The singular values `S` [32]. -/
abbrev argS (c : Dev nD) : S32.Idx → EReal := m ((c : Thread nD τ).loc main_arg2)
/-- The right factor `V` [32, 4096]. -/
abbrev argV (c : Dev nD) : S32x4096.Idx → EReal := m ((c : Thread nD τ).loc main_arg3)

/-! ## Layout operations read at an entry -/

/-- The flattening [4, 2048, 4096] → [8192, 4096] keeps row-major order: row `M = 2048·b + s` is row `s` of batch `b`. -/
theorem flatten_apply (x : S4x2048x4096.Idx → EReal) (M : Fin 8192) (k : Fin 4096) (b : Fin 4) (s : Fin 2048)
    (hM : M.val = b.val * 2048 + s.val) :
    shapeCast S8192x4096 x shapeCasts_S4x2048x4096_S8192x4096 (ix2 M k) = x (ix3 b s k) := by
  refine shapeCast_apply x _ _ _ ?_
  rw [Shape.rowMajor_val_three, Shape.rowMajor_val_two]
  show (b.val * 2048 + s.val) * 4096 + k.val = M.val * 4096 + k.val
  rw [hM]

/-- A transposition [32, 4096] → [4096, 32] swaps the two coordinates. -/
theorem transpose_rank_apply (y : S32x4096.Idx → EReal) (k : Fin 4096) (r : Fin 32) :
    transpose S4096x32 [1, 0] y transposes_S32x4096_S4096x32_1_0 (ix2 k r) = y (ix2 r k) :=
  transpose_apply _ y _ _ _ (fun b => match b with
    | ⟨0, _⟩ => rfl
    | ⟨1, _⟩ => rfl)

/-- A transposition [4096, 32] → [32, 4096] swaps the two coordinates. -/
theorem transpose_out_apply (y : S4096x32.Idx → EReal) (r : Fin 32) (o : Fin 4096) :
    transpose S32x4096 [1, 0] y transposes_S4096x32_S32x4096_1_0 (ix2 r o) = y (ix2 o r) :=
  transpose_apply _ y _ _ _ (fun b => match b with
    | ⟨0, _⟩ => rfl
    | ⟨1, _⟩ => rfl)

/-- The singular values laid along the rows of a [32, 4096] array: entry (r, k) is `S(r)`. -/
theorem column_apply (s : S32.Idx → EReal) (r : Fin 32) (k : Fin 4096) :
    broadcastInDim S32x4096 ![0, 1] bcast_S32x1_S32x4096_0_1 (broadcastInDim S32x1 ![0] bcast_S32_S32x1_0 s) (ix2 r k) = s (ix1 r) := by
  rw [broadcastInDim_apply _ bcast_S32x1_S32x4096_0_1 _ (ix2 r k) (ix2 r (0 : Fin 1)) (fun a => match a with
    | ⟨0, _⟩ => by show r.val = if (32 : Nat) = 1 then 0 else r.val; rw [if_neg (by decide)]
    | ⟨1, _⟩ => by show 0 = if (1 : Nat) = 1 then 0 else k.val; rw [if_pos rfl])]
  exact broadcastInDim_apply _ bcast_S32_S32x1_0 s (ix2 r (0 : Fin 1)) (ix1 r) (fun a => match a with
    | ⟨0, _⟩ => by show r.val = if (32 : Nat) = 1 then 0 else r.val; rw [if_neg (by decide)])

/-! ## The arrays at the region's entry -/

/-- The first window's array is the flattened input. -/
theorem input_eq (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results <;> rfl

/-- The second window's array is the scaled right factor, transposed. -/
theorem right_eq (c : Dev nD) : (V m c main_v4 : S4096x32.Idx → EReal)
    = transpose S4096x32 [1, 0] (mulf (F := Ideal) (φ := .f32) (m ((c : Thread nD τ).loc main_arg3) : S32x4096.Idx → EReal)
        (broadcastInDim S32x4096 ![0, 1] bcast_S32x1_S32x4096_0_1 (broadcastInDim S32x1 ![0] bcast_S32_S32x1_0 (m ((c : Thread nD τ).loc main_arg2) : S32.Idx → EReal))))
        transposes_S32x4096_S4096x32_1_0 := by
  show StableHlo.after hostOps0 (fun b => m (c, b)) (Proc.devRef .tc main_v4) = _
  after_results <;> rfl

/-- The third window's array is the left factor, transposed. -/
theorem left_eq (c : Dev nD) : (V m c main_v5 : S32x4096.Idx → EReal)
    = transpose S32x4096 [1, 0] (m ((c : Thread nD τ).loc main_arg1)) transposes_S4096x32_S32x4096_1_0 := by
  show StableHlo.after hostOps0 (fun b => m (c, b)) (Proc.devRef .tc main_v5) = _
  after_results <;> rfl

/-! ## Their entries -/

theorem input_apply (c : Dev nD) (M : Fin 8192) (k : Fin 4096) (b : Fin 4) (s : Fin 2048) (hM : M.val = b.val * 2048 + s.val) :
    (V m c main_v0 : S8192x4096.Idx → EReal) (ix2 M k) = argX m c (ix3 b s k) := by
  rw [input_eq]; exact flatten_apply _ M k b s hM

theorem right_apply (c : Dev nD) (k : Fin 4096) (r : Fin 32) :
    (V m c main_v4 : S4096x32.Idx → EReal) (ix2 k r)
      = argV m c (ix2 r k) * argS m c (ix1 r) := by
  rw [right_eq, transpose_rank_apply, mulf_apply, column_apply]

theorem left_apply (c : Dev nD) (r : Fin 32) (o : Fin 4096) :
    (V m c main_v5 : S32x4096.Idx → EReal) (ix2 r o) = argU m c (ix2 o r) := by
  rw [left_eq, transpose_out_apply]

end Cert.KernelIdeal.Entry

end
-- ==== Proof.Whole.lean ====
/-
  The idealized kernel program's result, as a function of its arguments.

  After the region the program unflattens the [8192, 4096] output array to [4, 2048, 4096]: entry (b, s, o) of the result
  is entry (2048·b + s, o) of the array. With the array the sixteen blocks leave (`Blocks.final`) and the entries of the
  three arrays the region found (`Entry`), entry (b, s, o) of the result is

      ( Σ_r ( Σ_k x(b, s, k) · ( V(r, k) · S(r) ) ) · U(o, r) ) · c,

  the layer with the singular values folded into the first contraction (`lowRankFolded`).
-/
import proofs.«107624_j43310450213238_1_alg».proof.Proof.Gen.KernelIdeal.Frame
import proofs.«107624_j43310450213238_1_alg».proof.Proof.Blocks
import proofs.«107624_j43310450213238_1_alg».proof.Proof.Entry
import proofs.«107624_j43310450213238_1_alg».proof.Proof.LowRank
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Cert.KernelIdeal.Entry (argX argU argS argV)

variable (m : (ℓ : Loc nD τ sig) → Buf (Elt Ideal) ℓ) (ρ : Dev nD → PrngReg)

/-- The unflattening [8192, 4096] → [4, 2048, 4096] keeps row-major order: entry (b, s, o) is entry (2048·b + s, o). -/
theorem unflatten_apply (Y : S8192x4096.Idx → EReal) (b : Fin 4) (s : Fin 2048) (o : Fin 4096) (M : Fin 8192)
    (hM : M.val = b.val * 2048 + s.val) :
    shapeCast S4x2048x4096 Y shapeCasts_S8192x4096_S4x2048x4096 (ix3 b s o) = Y (ix2 M o) := by
  refine shapeCast_apply Y _ _ _ ?_
  rw [Shape.rowMajor_val_two, Shape.rowMajor_val_three]
  show M.val * 4096 + o.val = (b.val * 2048 + s.val) * 4096 + o.val
  rw [hM]

/-- The folded layer at an entry given by its coordinates. -/
theorem lowRankFolded_apply (x : S4x2048x4096.Idx → EReal) (U : S4096x32.Idx → EReal) (S : S32.Idx → EReal) (V : S32x4096.Idx → EReal)
    (b : Fin 4) (s : Fin 2048) (o : Fin 4096) :
    Cert.LowRank.lowRankFolded x U S V (ix3 b s o)
      = (∑ r : Fin 32, (∑ k : Fin 4096, x (ix3 b s k) * (V (ix2 r k) * S (ix1 r))) * U (ix2 o r)) * Cert.LowRank.scale := rfl

/-- The program's result buffer after the host operation that follows the region: the unflattened output array. -/
theorem result_eq (c : Dev nD) :
    (Pipeline.afterTail₀ cfgs (dats m) 0 (V0 m) [hostOps1] c main_v7 : S4x2048x4096.Idx → EReal)
      = shapeCast S4x2048x4096 (Blocks.rowsOut (V m c main_v0) (V m c main_v4) (V m c main_v5)) shapeCasts_S8192x4096_S4x2048x4096 := by
  unfold Pipeline.afterTail₀
  show StableHlo.after hostOps1 _ (Proc.devRef .tc main_v7) = _
  after_results
  exact congrArg (fun Y : S8192x4096.Idx → EReal => shapeCast S4x2048x4096 Y shapeCasts_S8192x4096_S4x2048x4096)
    ((Pipeline.withArrays_arr spec0 launch0.win.arr_inj c _ _ 3).trans (Blocks.final m c))

/-- Entry by entry, the unflattened output array is the layer with the singular values folded into the right factor. -/
theorem folded_eq (c : Dev nD) :
    shapeCast S4x2048x4096 (Blocks.rowsOut (V m c main_v0) (V m c main_v4) (V m c main_v5)) shapeCasts_S8192x4096_S4x2048x4096
      = Cert.LowRank.lowRankFolded (argX m c) (argU m c) (argS m c) (argV m c) := by
  funext i
  obtain ⟨b, s, o, rfl⟩ : ∃ (b : Fin 4) (s : Fin 2048) (o : Fin 4096), i = ix3 b s o := ⟨i 0, i 1, i 2, eq_ix3 i⟩
  obtain ⟨M, hM⟩ : ∃ M : Fin 8192, M.val = b.val * 2048 + s.val := ⟨⟨b.val * 2048 + s.val, by omega⟩, rfl⟩
  rw [unflatten_apply _ b s o M hM, Blocks.rowsOut_apply, lowRankFolded_apply]
  simp only [fun k => Entry.input_apply m c M k b s hM, fun k r => Entry.right_apply m c k r, fun r o => Entry.left_apply m c r o]

/-- Every weakly fair execution of the idealized kernel program terminates with its result at the folded layer of the
    arguments, and the arguments unchanged. -/
theorem run : θ_run defs (onTc (τ := τ) (main (F := Ideal))) ⟨m, fun _ => 0, ρ⟩ fun r => ∀ c : Dev nD,
      r.2.mem ((c.tc : Thread nD τ).loc main_v7) = Cert.LowRank.lowRankFolded (argX m c) (argU m c) (argS m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v7 (Pipeline.mem_restRefs_of main_v7 (by decide) (by decide))).trans ((result_eq m c).trans (folded_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Whole

end
-- ==== Proof.lean ====
/-
  The low-rank layer  out = ((x · Vᵀ) ∘ S) · Uᵀ · (alpha / rank)  as a tiled kernel, against its plain reference.

  The kernel program folds the singular values into the right factor before the launch (Vt = (V ∘ S)ᵀ), flattens the
  input to 8192 rows, and on each of sixteen row blocks computes (X · Vt) · Ut and scales by the word of 1.0; the
  reference contracts x with V, scales by S, contracts with U and scales by the same word. Over the extended reals a
  change of float format is the identity and both matrix products are plain sums, so the two results are

      kernel:     ( Σ_r ( Σ_k x(b,s,k) · ( V(r,k) · S(r) ) ) · U(o,r) ) · c        (Proof/Whole.lean)
      reference:  ( Σ_r ( ( Σ_k x(b,s,k) · V(r,k) ) · S(r) ) · U(o,r) ) · c        (Proof/RefValue.lean)

  and they differ only in whether S(r) multiplies inside or outside the sum over k. That is distributivity, which holds
  on the reals and fails at infinities; the precondition (every float input finite: Proof/Finite.lean) puts x, V and S
  in the reals, where the two agree (Proof/LowRank.lean). The three frame claims are the generated frames (the
  reference's is its generated run with the result dropped), and the idealization rewrote nothing, so there is nothing
  to preserve.
-/
import proofs.«107624_j43310450213238_1_alg».proof.Defs
import proofs.«107624_j43310450213238_1_alg».proof.Proof.Gen.Kernel
import proofs.«107624_j43310450213238_1_alg».proof.Proof.Gen.Kernel.Skeleton
import proofs.«107624_j43310450213238_1_alg».proof.Proof.Gen.Kernel.Launch
import proofs.«107624_j43310450213238_1_alg».proof.Proof.Gen.Kernel.Points
import proofs.«107624_j43310450213238_1_alg».proof.Proof.Gen.Kernel.Frame
import proofs.«107624_j43310450213238_1_alg».proof.Proof.Gen.KernelIdeal
import proofs.«107624_j43310450213238_1_alg».proof.Proof.Gen.KernelIdeal.Skeleton
import proofs.«107624_j43310450213238_1_alg».proof.Proof.Gen.KernelIdeal.Launch
import proofs.«107624_j43310450213238_1_alg».proof.Proof.Gen.KernelIdeal.Points
import proofs.«107624_j43310450213238_1_alg».proof.Proof.Gen.KernelIdeal.Frame
import proofs.«107624_j43310450213238_1_alg».proof.Proof.Gen.ReferenceIdeal
import proofs.«107624_j43310450213238_1_alg».proof.Proof.Gen.ReferenceIdeal.Run
import proofs.«107624_j43310450213238_1_alg».proof.Proof.Gen.ReferenceIdeal.Read
import proofs.«107624_j43310450213238_1_alg».proof.Proof.Gen.Pre_finite_inputs
import proofs.«107624_j43310450213238_1_alg».proof.Proof.LowRank
import proofs.«107624_j43310450213238_1_alg».proof.Proof.Finite
import proofs.«107624_j43310450213238_1_alg».proof.Proof.RefValue
import proofs.«107624_j43310450213238_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the four arguments, both idealized programs end at `lowRank` of the arguments: the
    reference by its operations read in order, the kernel program at the folded form, which on the finite inputs the
    precondition grants is the same function. -/
theorem algebraic : Cert.algebraic_KernelIdeal_ReferenceIdeal := by
  intro m ρ m' ρ' hpre hagree
  refine ⟨fun c => Cert.LowRank.lowRank (Cert.KernelIdeal.Entry.argX m c) (Cert.KernelIdeal.Entry.argU m c)
    (Cert.KernelIdeal.Entry.argS m c) (Cert.KernelIdeal.Entry.argV m c), ?_, ?_⟩
  · refine (θ_run Cert.KernelIdeal.defs _ _).mono (fun r h c => ⟨(h c).1.trans ?_, (h c).2⟩) (Cert.KernelIdeal.Whole.run m ρ)
    obtain ⟨hx, -, hS, hV⟩ := Cert.Pre_finite_inputs.Finite.real_of_pre _ _ _ _ (hpre c)
    exact Cert.LowRank.lowRankFolded_eq _ _ _ _ hx hS hV
  · refine (θ_run Cert.ReferenceIdeal.defs _ _).mono (fun r h c => ⟨?_, (h c).2⟩) (Cert.ReferenceIdeal.Value.run (F := Ideal) m' ρ')
    rw [(h c).1, Cert.ReferenceIdeal.Read.val_main_v6_eq, Cert.ReferenceIdeal.RefValue.reference_eq, (hagree c).1,
      (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
